-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x512 : Shape := ⟨3, ![64, 128, 512]⟩
abbrev S64x32x512 : Shape := ⟨3, ![64, 32, 512]⟩
abbrev S_ : Shape := ⟨0, ![]⟩

class Facts : Prop where
  bcast_S_S64x128x512 : S_.BroadcastsInDim S64x128x512 (![] : Fin 0 → Fin S64x128x512.rank)
  reducesTo_S64x128x512_S_d0_1_2 : S64x128x512.ReducesTo [0, 1, 2] S_
  h_S_ : 0 < S_.numel
  bcast_S_S64x32x512 : S_.BroadcastsInDim S64x32x512 (![] : Fin 0 → Fin S64x32x512.rank)
  reducesTo_S64x32x512_S_d0_1_2 : S64x32x512.ReducesTo [0, 1, 2] S_

variable [Facts]

def fn {F : FTy → Type} [FloatOps F] (main_arg0 : FVec F S64x128x512 .f32) (main_arg1 : FVec F S64x32x512 .f32) : IVec S_ 1 :=
  let main_v0 : FVec F S64x128x512 .f32 := Host.absf main_arg0
  let main_cst : FVec F S_ .f32 := constant S_ .f32 0x7F800000#32
  let main_v1 : FVec F S64x128x512 .f32 := broadcastInDim S64x128x512 ![] bcast_S_S64x128x512 main_cst
  let main_v2 : IVec S64x128x512 1 := cmpf .olt main_v0 main_v1
  let main_c : IVec S_ 1 := constantI S_ 1 1#1
  let main_v3 : IVec S_ 1 := (fun x v => Host.reduce IntOp.andi x v reducesTo_S64x128x512_S_d0_1_2 h_S_) main_v2 main_c
  let main_v4 : FVec F S64x32x512 .f32 := Host.absf main_arg1
  let main_cst_0 : FVec F S_ .f32 := constant S_ .f32 0x7F800000#32
  let main_v5 : FVec F S64x32x512 .f32 := broadcastInDim S64x32x512 ![] bcast_S_S64x32x512 main_cst_0
  let main_v6 : IVec S64x32x512 1 := cmpf .olt main_v4 main_v5
  let main_c_1 : IVec S_ 1 := constantI S_ 1 1#1
  let main_v7 : IVec S_ 1 := (fun x v => Host.reduce IntOp.andi x v reducesTo_S64x32x512_S_d0_1_2 h_S_) main_v6 main_c_1
  let main_v8 : IVec S_ 1 := andi main_v3 main_v7
  main_v8
-- ==== Kernel.lean ====
abbrev S64x128x512 : Shape := ⟨3, ![64, 128, 512]⟩
abbrev S64x32x512 : Shape := ⟨3, ![64, 32, 512]⟩
abbrev S16x32x512 : Shape := ⟨3, ![16, 32, 512]⟩
abbrev S16x32 : Shape := ⟨2, ![16, 32]⟩
abbrev S16x32x1 : Shape := ⟨3, ![16, 32, 1]⟩
abbrev S2048x512 : Shape := ⟨2, ![2048, 512]⟩
abbrev S64x64x4096 : Shape := ⟨3, ![64, 64, 4096]⟩
abbrev S1x128x512 : Shape := ⟨3, ![1, 128, 512]⟩
abbrev S1x64x4096 : Shape := ⟨3, ![1, 64, 4096]⟩
abbrev S128x512 : Shape := ⟨2, ![128, 512]⟩
abbrev S128 : Shape := ⟨1, ![128]⟩
abbrev S128x1 : Shape := ⟨2, ![128, 1]⟩
abbrev S512x512 : Shape := ⟨2, ![512, 512]⟩
abbrev S128x16x32 : Shape := ⟨3, ![128, 16, 32]⟩
abbrev S16x128x32 : Shape := ⟨3, ![16, 128, 32]⟩
abbrev S16x4096 : Shape := ⟨2, ![16, 4096]⟩
abbrev S1x16x4096 : Shape := ⟨3, ![1, 16, 4096]⟩
abbrev S64x64x128x32 : Shape := ⟨4, ![64, 64, 128, 32]⟩

abbrev nBuf : Space → Nat
  | .hbm => 6
  | .vmem => 9
  | .smem => 0
  | _ => 0

abbrev bufTy : (tb : Table) → Fin (tcTables nBuf tb) → BufTy
  | .hbm, ⟨0, _⟩ => ⟨S64x128x512, .f32⟩
  | .hbm, ⟨1, _⟩ => ⟨S64x32x512, .f32⟩
  | .hbm, ⟨2, _⟩ => ⟨S64x32x512, .bf16⟩
  | .hbm, ⟨3, _⟩ => ⟨S2048x512, .bf16⟩
  | .hbm, ⟨4, _⟩ => ⟨S64x64x4096, .f32⟩
  | .hbm, ⟨5, _⟩ => ⟨S64x64x128x32, .f32⟩
  | .local _ .vmem, ⟨0, _⟩ => ⟨S16x32x512, .f32⟩
  | .local _ .vmem, ⟨1, _⟩ => ⟨S16x32x512, .f32⟩
  | .local _ .vmem, ⟨2, _⟩ => ⟨S16x32x512, .bf16⟩
  | .local _ .vmem, ⟨3, _⟩ => ⟨S16x32x512, .bf16⟩
  | .local _ .vmem, ⟨4, _⟩ => ⟨S1x128x512, .f32⟩
  | .local _ .vmem, ⟨5, _⟩ => ⟨S1x128x512, .f32⟩
  | .local _ .vmem, ⟨6, _⟩ => ⟨S2048x512, .bf16⟩
  | .local _ .vmem, ⟨7, _⟩ => ⟨S1x64x4096, .f32⟩
  | .local _ .vmem, ⟨8, _⟩ => ⟨S1x64x4096, .f32⟩
  | _, _ => ⟨S64x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S16x32x512_S16x32x512_0_0_0 : ∀ a, (![0, 0, 0] : Fin 3 → Nat) a + S16x32x512.size a ≤ S16x32x512.size a
  h_S16x32x512 : 0 < S16x32x512.numel
  reduces_S16x32x512_S16x32 : S16x32x512.Reduces [2] S16x32
  shapeCasts_S16x32_S16x32x1 : S16x32.ShapeCasts S16x32x1
  broadcasts_S16x32x1_S16x32x512 : S16x32x1.Broadcasts S16x32x512
  bitsLt_bf16_f32 : FTy.bits .bf16 < FTy.bits .f32
  packedbf16_S16x32x512_S16x32x512_0_0_0 : (Rect.unit (s := S16x32x512) ![0, 0, 0] S16x32x512.size inb_S16x32x512_S16x32x512_0_0_0).PackedRows (EltTy.packing .bf16)
  shapeCasts_S64x32x512_S2048x512 : S64x32x512.ShapeCasts S2048x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  reduces_S128x512_S128 : S128x512.Reduces [1] S128
  shapeCasts_S128_S128x1 : S128.ShapeCasts S128x1
  broadcasts_S128x1_S128x512 : S128x1.Broadcasts S128x512
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  shapeCasts_S128x512_S128x16x32 : S128x512.ShapeCasts S128x16x32
  transposes_S128x16x32_p1_0_2_S16x128x32 : S128x16x32.Transposes [1, 0, 2] S16x128x32
  shapeCasts_S16x128x32_S16x4096 : S16x128x32.ShapeCasts S16x4096
  inb_S1x64x4096_S1x16x4096_0_0_0 : ∀ a, (![0, 0, 0] : Fin 3 → Nat) a + S1x16x4096.size a ≤ S1x64x4096.size a
  h_S1x16x4096 : 0 < S1x16x4096.numel
  shapeCasts_S1x16x4096_S16x4096 : S1x16x4096.ShapeCasts S16x4096
  shapeCasts_S16x4096_S1x16x4096 : S16x4096.ShapeCasts S1x16x4096
  inb_S2048x512_S512x512_512_0 : ∀ a, (![512, 0] : Fin 2 → Nat) a + S512x512.size a ≤ S2048x512.size a
  inb_S1x64x4096_S1x16x4096_0_16_0 : ∀ a, (![0, 16, 0] : Fin 3 → Nat) a + S1x16x4096.size a ≤ S1x64x4096.size a
  inb_S2048x512_S512x512_1024_0 : ∀ a, (![1024, 0] : Fin 2 → Nat) a + S512x512.size a ≤ S2048x512.size a
  inb_S1x64x4096_S1x16x4096_0_32_0 : ∀ a, (![0, 32, 0] : Fin 3 → Nat) a + S1x16x4096.size a ≤ S1x64x4096.size a
  inb_S2048x512_S512x512_1536_0 : ∀ a, (![1536, 0] : Fin 2 → Nat) a + S512x512.size a ≤ S2048x512.size a
  inb_S1x64x4096_S1x16x4096_0_48_0 : ∀ a, (![0, 48, 0] : Fin 3 → Nat) a + S1x16x4096.size a ≤ S1x64x4096.size a
  shapeCasts_S64x64x4096_S64x64x128x32 : S64x64x4096.ShapeCasts S64x64x128x32
  dot_S128x512_S512x512_S128x512_1_1_0_0_n_n_wf : DotDims.WF S128x512 S512x512 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32x512.size a ≤ S64x32x512.size a
  hwx0_0 : ∀ i : grid0.Coords, EltTy.bits .f32 = 32 ∨ (Rect.block (s := S64x32x512) S16x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32x512.size a ≤ S64x32x512.size a
  hwx0_1 : ∀ i : grid0.Coords, EltTy.bits .bf16 = 32 ∨ (Rect.block (s := S64x32x512) S16x32x512.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x512.size a ≤ S64x128x512.size a
  hwx1_0 : ∀ i : grid1.Coords, EltTy.bits .f32 = 32 ∨ (Rect.block (s := S64x128x512) S1x128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x512.size a
  hwx1_1 : ∀ i : grid1.Coords, EltTy.bits .bf16 = 32 ∨ (Rect.block (s := S2048x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x4096.size a ≤ S64x64x4096.size a
  hwx1_2 : ∀ i : grid1.Coords, EltTy.bits .f32 = 32 ∨ (Rect.block (s := S64x64x4096) S1x64x4096.size (cc1_transform_2 i) (hinb1_2 i)).WholeWords (EltTy.packing .f32)

variable [Facts₀]

def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf

abbrev win0_0 : Pipeline.Window sig grid0 :=
  Pipeline.Window.ofSpec (Memref.whole main_arg1) S16x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x128x512 : Shape := ⟨3, ![64, 128, 512]⟩
abbrev S64x32x512 : Shape := ⟨3, ![64, 32, 512]⟩
abbrev S_ : Shape := ⟨0, ![]⟩
abbrev S64x128 : Shape := ⟨2, ![64, 128]⟩
abbrev S64x128x1 : Shape := ⟨3, ![64, 128, 1]⟩
abbrev S64x32 : Shape := ⟨2, ![64, 32]⟩
abbrev S64x32x1 : Shape := ⟨3, ![64, 32, 1]⟩
abbrev S64x32x64x128 : Shape := ⟨4, ![64, 32, 64, 128]⟩
abbrev S64x64x128x32 : Shape := ⟨4, ![64, 64, 128, 32]⟩

abbrev nBuf : Space → Nat
  | .hbm => 36
  | .vmem => 0
  | .smem => 0
  | _ => 0

abbrev bufTy : (tb : Table) → Fin (tcTables nBuf tb) → BufTy
  | .hbm, ⟨0, _⟩ => ⟨S64x128x512, .f32⟩
  | .hbm, ⟨1, _⟩ => ⟨S64x32x512, .f32⟩
  | .hbm, ⟨2, _⟩ => ⟨S64x128x512, .f32⟩
  | .hbm, ⟨3, _⟩ => ⟨S_, .f32⟩
  | .hbm, ⟨4, _⟩ => ⟨S64x128, .f32⟩
  | .hbm, ⟨5, _⟩ => ⟨S64x128x1, .f32⟩
  | .hbm, ⟨6, _⟩ => ⟨S64x128x1, .f32⟩
  | .hbm, ⟨7, _⟩ => ⟨S_, .f32⟩
  | .hbm, ⟨8, _⟩ => ⟨S64x128x1, .f32⟩
  | .hbm, ⟨9, _⟩ => ⟨S64x128x1, .f32⟩
  | .hbm, ⟨10, _⟩ => ⟨S64x128x512, .f32⟩
  | .hbm, ⟨11, _⟩ => ⟨S64x128x512, .f32⟩
  | .hbm, ⟨12, _⟩ => ⟨S64x32x512, .f32⟩
  | .hbm, ⟨13, _⟩ => ⟨S_, .f32⟩
  | .hbm, ⟨14, _⟩ => ⟨S64x32, .f32⟩
  | .hbm, ⟨15, _⟩ => ⟨S64x32x1, .f32⟩
  | .hbm, ⟨16, _⟩ => ⟨S64x32x1, .f32⟩
  | .hbm, ⟨17, _⟩ => ⟨S_, .f32⟩
  | .hbm, ⟨18, _⟩ => ⟨S64x32x1, .f32⟩
  | .hbm, ⟨19, _⟩ => ⟨S64x32x1, .f32⟩
  | .hbm, ⟨20, _⟩ => ⟨S64x32x512, .f32⟩
  | .hbm, ⟨21, _⟩ => ⟨S64x32x512, .f32⟩
  | .hbm, ⟨22, _⟩ => ⟨S64x32x64x128, .f32⟩
  | .hbm, ⟨23, _⟩ => ⟨S64x64x128x32, .f32⟩
  | .hbm, ⟨24, _⟩ => ⟨S_, .f32⟩
  | .hbm, ⟨25, _⟩ => ⟨S64x64x128x32, .f32⟩
  | .hbm, ⟨26, _⟩ => ⟨S64x64x128x32, .f32⟩
  | .hbm, ⟨27, _⟩ => ⟨S_, .f32⟩
  | .hbm, ⟨28, _⟩ => ⟨S64x64x128x32, .f32⟩
  | .hbm, ⟨29, _⟩ => ⟨S64x64x128x32, .f32⟩
  | .hbm, ⟨30, _⟩ => ⟨S_, .f32⟩
  | .hbm, ⟨31, _⟩ => ⟨S64x64x128x32, .f32⟩
  | .hbm, ⟨32, _⟩ => ⟨S64x64x128x32, .f32⟩
  | .hbm, ⟨33, _⟩ => ⟨S64x64x128x32, .f32⟩
  | .hbm, ⟨34, _⟩ => ⟨S64x64x128x32, .f32⟩
  | .hbm, ⟨35, _⟩ => ⟨S64x64x128x32, .f32⟩
  | _, _ => ⟨S64x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]

class Facts₀ : Prop where
  reducesTo_S64x128x512_S64x128_d2 : S64x128x512.ReducesTo [2] S64x128
  h_S_ : 0 < S_.numel
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S64x128x1_S64x128x512_0_1_2 : S64x128x1.BroadcastsInDim S64x128x512 (![0, 1, 2] : Fin 3 → Fin S64x128x512.rank)
  reducesTo_S64x32x512_S64x32_d2 : S64x32x512.ReducesTo [2] S64x32
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x512_0_1_2 : S64x32x1.BroadcastsInDim S64x32x512 (![0, 1, 2] : Fin 3 → Fin S64x32x512.rank)
  transposes_S64x32x64x128_S64x64x128x32_2_0_3_1 : S64x32x64x128.Transposes [2, 0, 3, 1] S64x64x128x32
  bcast_S_S64x64x128x32 : S_.BroadcastsInDim S64x64x128x32 (![] : Fin 0 → Fin S64x64x128x32.rank)
  dot_S64x32x512_S64x128x512_S64x32x64x128_2_2_01_01_n_n_wf : DotDims.WF S64x32x512 S64x128x512 S64x32x64x128 [2] [2] [0, 1] [0, 1] [] []

variable [Facts₀]

def dot_S64x32x512_S64x128x512_S64x32x64x128_2_2_01_01_n_n : DotDims S64x32x512 S64x128x512 S64x32x64x128 where
  lhsContracting := [2]
  rhsContracting := [2]
  lhsNonContracting := [0, 1]
  rhsNonContracting := [0, 1]
  lhsBatch := []
  rhsBatch := []
  wf := dot_S64x32x512_S64x128x512_S64x32x64x128_2_2_01_01_n_n_wf

class Facts : Prop extends Facts₀ where

variable [Facts]
-- ==== Proof.Spec.lean ====
/-
  The mathematics both programs compute, over the extended reals.

  A row `x` of 512 entries is scaled to unit length: every entry is multiplied by the inverse of the
  row's clamped norm `max (√(∑ x²)) ε`, where `ε` is the f32 nearest to 1e-12. The score of an audio
  row `a` against a text row `t`, both so scaled, is `exp (-√(max (2 - 2·⟨a, t⟩) 0))`: for unit vectors
  `2 - 2⟨a, t⟩` is the squared distance.

  One program spells the scaling `x · (1 / n)`, the other `x / n`. The clamped norm `n` is at least `ε > 0`
  on EVERY extended real (at `⊥` and `⊤` too), so it is never zero, and off zero both spellings are
  `x · n⁻¹`: the two agree with no finiteness assumption. Likewise `0 - y = -y` and the order of the two
  factors under the sum are laws of the extended reals that hold at the infinities.
-/
import Idealize.ShloMosaic.PureOps.Ideal
import Idealize.ShloMosaic.PureOps.Ideal.Laws
import Idealize.ShloMosaic.Lib.ValueIdx

noncomputable section

open scoped BigOperators

namespace Cert.Score

open Idealize.ShloMosaic

/-- The floor under a row's norm: the f32 nearest to 1e-12. -/
abbrev eps : EReal := Ideal.ofBits .f32 0x2B8CBCCC#32
/-- The f32 pattern of 1.0. -/
abbrev one : EReal := Ideal.ofBits .f32 0x3F800000#32
/-- The f32 pattern of 2.0 (never evaluated: the same word on both sides). -/
abbrev two : EReal := Ideal.ofBits .f32 0x40000000#32

/-- The floor is a positive number. -/
theorem eps_pos : (0 : EReal) < eps := by
  simp [Ideal.ofBits, Ideal.ieee, -EReal.coe_mul]

/-- The pattern of 1.0 denotes 1. -/
theorem one_eq : one = 1 := by
  simp [Ideal.ofBits, Ideal.ieee, -EReal.coe_mul] <;> norm_num

/-- A row's norm, clamped from below by the floor. -/
def cnorm (x : Fin 512 → EReal) : EReal := max (Ideal.sqrt (∑ k, x k * x k)) eps

/-- The clamped norm is at least the floor, so it is not zero — whatever the row holds. -/
theorem cnorm_ne_zero (x : Fin 512 → EReal) : cnorm x ≠ 0 :=
  ne_of_gt (lt_of_lt_of_le eps_pos (le_max_right _ _))

/-- Entry `d` of the row scaled to unit length. -/
def unitv (x : Fin 512 → EReal) (d : Fin 512) : EReal := x d * (cnorm x)⁻¹

/-- Multiplying by the reciprocal of the clamped norm scales the entry. -/
theorem mul_recip (x : Fin 512 → EReal) (d : Fin 512) : x d * Ideal.div one (cnorm x) = unitv x d := by
  unfold Ideal.div unitv
  rw [if_neg (cnorm_ne_zero x), one_eq, one_mul]

/-- Dividing by the clamped norm scales the entry. -/
theorem quot (x : Fin 512 → EReal) (d : Fin 512) : Ideal.div (x d) (cnorm x) = unitv x d := by
  unfold Ideal.div unitv
  rw [if_neg (cnorm_ne_zero x)]

/-- The score of two rows from their inner product. -/
def score (a t : Fin 512 → EReal) : EReal :=
  Ideal.exp (-(Ideal.sqrt (max (two - two * ∑ k, a k * t k) 0)))

/-- The inner product does not depend on which row's entry is written first. -/
theorem score_comm (a t : Fin 512 → EReal) :
    Ideal.exp (-(Ideal.sqrt (max (two - two * ∑ k, t k * a k) 0))) = score a t := by
  unfold score
  simp only [mul_comm]

/-- Subtracting from zero is negating. -/
theorem score_zero_sub (a t : Fin 512 → EReal) :
    Ideal.exp (0 - Ideal.sqrt (max (two - two * ∑ k, a k * t k) 0)) = score a t := by
  unfold score
  rw [zero_sub]

/-- Row `(b, s)` of an array of 512-entry rows. -/
def row {n0 n1 : Nat} (X : (⟨3, ![n0, n1, 512]⟩ : Shape).Idx → EReal) (b : Fin n0) (s : Fin n1) : Fin 512 → EReal :=
  fun k => X (ValueIdx.ix3 b s k)

/-- THE RESULT, as one function of the two argument arrays: entry `(b, i, s, j)` is the score of audio row
    `(b, s)` against text row `(i, j)`, both scaled to unit length. -/
def G (A : (⟨3, ![64, 128, 512]⟩ : Shape).Idx → EReal) (T : (⟨3, ![64, 32, 512]⟩ : Shape).Idx → EReal) :
    (⟨4, ![64, 64, 128, 32]⟩ : Shape).Idx → EReal :=
  fun x => score (unitv (row A (x 0) (x 2))) (unitv (row T (x 1) (x 3)))

/-- `G` at an index given by its coordinates. -/
theorem G_ix4 (A : (⟨3, ![64, 128, 512]⟩ : Shape).Idx → EReal) (T : (⟨3, ![64, 32, 512]⟩ : Shape).Idx → EReal)
    (b : Fin 64) (i : Fin 64) (s : Fin 128) (j : Fin 32) :
    G A T (ValueIdx.ix4 b i s j) = score (unitv (row A b s)) (unitv (row T i j)) := rfl

end Cert.Score

end
-- ==== Proof.RefValue.lean ====
/-
  The reference, read at an index: its result array is `Score.G` of the two argument arrays.

  The reference scales every row of both arrays by dividing it by its clamped norm, contracts the last
  axes of the text and audio arrays into a `[i, j, b, s]` array, transposes that to `[b, i, s, j]`, and
  applies `exp (-√(max (2 - 2·) 0))` entry by entry. Read at `(b, i, s, j)` that is the score of audio row
  `(b, s)` against text row `(i, j)`; the text row's entry is written first under the sum, which the
  commutativity of the product undoes.
-/
import proofs.«137049_j74655121539841_2_alg».proof.Proof.Gen.ReferenceIdeal.Read
import proofs.«137049_j74655121539841_2_alg».proof.Proof.Spec

noncomputable section

open scoped BigOperators

namespace Cert.ReferenceIdeal.RefValue

open Cert.ReferenceIdeal Cert.ReferenceIdeal.Read Idealize.ShloMosaic Idealize.ShloMosaic.ValueIdx Cert.Score

/-- An entry of the scaled audio array is the entry of its row scaled to unit length. -/
theorem audio_scaled (x0 : (⟨S64x128x512, .f32⟩ : BufTy).Contents (Elt Ideal)) (b : Fin 64) (s : Fin 128) (k : Fin 512) :
    val_main_v4 (F := Ideal) x0 (ix3 b s k) = unitv (row x0 b s) k := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.hostUnary_sqrt_def, Ideal.maximumf_def, Ideal.ofBits_def,
    Ideal.mulf_def, Ideal.ofBits_zero_f32, zero_add]
  have e : ∀ k' : Fin 512, idx_main_call0_v1 (idx_main_call0_v2 (idx_main_v3 (ix3 b s k))) k' = ix3 b s k' := fun k' =>
    funext fun a => Fin.ext (by match a with | ⟨0, _⟩ => rfl | ⟨1, _⟩ => rfl | ⟨2, _⟩ => rfl)
  simp only [e]
  exact quot (row x0 b s) k

/-- An entry of the scaled text array is the entry of its row scaled to unit length. -/
theorem text_scaled (x1 : (⟨S64x32x512, .f32⟩ : BufTy).Contents (Elt Ideal)) (i : Fin 64) (j : Fin 32) (k : Fin 512) :
    val_main_v9 (F := Ideal) x1 (ix3 i j k) = unitv (row x1 i j) k := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, Ideal.hostDivf_def, Ideal.hostUnary_sqrt_def, Ideal.maximumf_def, Ideal.ofBits_def,
    Ideal.mulf_def, Ideal.ofBits_zero_f32, zero_add]
  have e : ∀ k' : Fin 512, idx_main_call1_v1 (idx_main_call1_v2 (idx_main_v8 (ix3 i j k))) k' = ix3 i j k' := fun k' =>
    funext fun a => Fin.ext (by match a with | ⟨0, _⟩ => rfl | ⟨1, _⟩ => rfl | ⟨2, _⟩ => rfl)
  simp only [e]
  exact quot (row x1 i j) k

/-- The reference's result is `G` of the arguments. -/
theorem result_eq (x0 : (⟨S64x128x512, .f32⟩ : BufTy).Contents (Elt Ideal)) (x1 : (⟨S64x32x512, .f32⟩ : BufTy).Contents (Elt Ideal)) :
    val_main_v20 (F := Ideal) x0 x1 = G x0 x1 := by
  funext x
  obtain ⟨b, i, s, j, rfl⟩ : ∃ (b : Fin 64) (i : Fin 64) (s : Fin 128) (j : Fin 32), x = ix4 b i s j :=
    ⟨x 0, x 1, x 2, x 3, eq_ix4 x⟩
  rw [G_ix4, val_main_v20_apply, val_main_v19_apply, val_main_v18_apply, val_main_v17_apply, val_main_v15_apply,
    val_main_v13_apply, val_main_v11_apply, val_main_v10_apply, val_main_v12_apply, val_main_v14_apply, val_main_v16_apply,
    val_main_cst_1_apply, val_main_cst_2_apply, val_main_cst_3_apply]
  have el : ∀ k : Fin 512, lidx_main_v10 (idx_main_v11 (ix4 b i s j)) k = ix3 i j k := fun k =>
    funext fun a => Fin.ext (by match a with | ⟨0, _⟩ => rfl | ⟨1, _⟩ => rfl | ⟨2, _⟩ => rfl)
  have er : ∀ k : Fin 512, ridx_main_v10 (idx_main_v11 (ix4 b i s j)) k = ix3 b s k := fun k =>
    funext fun a => Fin.ext (by match a with | ⟨0, _⟩ => rfl | ⟨1, _⟩ => rfl | ⟨2, _⟩ => rfl)
  simp only [el, er, text_scaled, audio_scaled, Ideal.hostUnary_exp_def, Ideal.hostNegf_def, Ideal.negf_def,
    Ideal.hostUnary_sqrt_def, Ideal.maximumf_def, Ideal.subf_def, Ideal.mulf_def, Ideal.ofBits_def, Ideal.ofBits_zero_f32]
  exact score_comm (unitv (row x0 b s)) (unitv (row x1 i j))

end Cert.ReferenceIdeal.RefValue

end
-- ==== Proof.TextPayload.lean ====
/-
  The first kernel's body at an index. The body squares its [16, 32, 512] block, sums each row of 512, takes
  the square root, clamps it from below, takes the reciprocal and multiplies the block by it, row by row: entry
  `(p, q, d)` of what it stores is entry `d` of row `(p, q)` of the block scaled to unit length.
-/
import proofs.«137049_j74655121539841_2_alg».proof.Proof.Gen.KernelIdeal.Skeleton
import proofs.«137049_j74655121539841_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.TextValue

open Cert.KernelIdeal Cert.KernelIdeal.Gen Idealize.ShloMosaic Idealize.ShloMosaic.ValueIdx Cert.Score

/-- A row's sum, kept as a trailing unit axis and spread back along the row, read at `(p, q, d)`: the value at
    `(p, q)`. -/
theorem spread_row (v : FVec Ideal S16x32 .f32) (f : EReal → EReal) (p : Fin 16) (q : Fin 32) (d : Fin 512) :
    broadcastTo S16x32x512 (fun i => f (shapeCast S16x32x1 v shapeCasts_S16x32_S16x32x1 i)) broadcasts_S16x32x1_S16x32x512 (ix3 p q d)
      = f (v (ix2 p q)) := by
  refine (broadcastTo_apply _ broadcasts_S16x32x1_S16x32x512 (ix3 p q d) (ix3 p q (0 : Fin 1)) (fun a => ?_)).trans ?_
  · match a with
    | ⟨0, _⟩ => show p.val = if (16 : Nat) = 1 then 0 else p.val; rw [if_neg (by decide)]
    | ⟨1, _⟩ => show q.val = if (32 : Nat) = 1 then 0 else q.val; rw [if_neg (by decide)]
    | ⟨2, _⟩ => show 0 = if (1 : Nat) = 1 then 0 else d.val; rw [if_pos rfl]
  · refine congrArg f (shapeCast_apply v shapeCasts_S16x32_S16x32x1 (ix3 p q (0 : Fin 1)) (ix2 p q) ?_)
    rw [Shape.rowMajor_val_two, Shape.rowMajor_val_three]
    show p.val * 32 + q.val = (p.val * 32 + q.val) * 1 + 0
    omega

/-- The sum of a block's squares along its rows, at row `(p, q)`. -/
theorem row_sum (w : FVec Ideal S16x32x512 .f32) (hφ) (hacc) (p : Fin 16) (q : Fin 32) :
    multiReduction .add [2] S16x32 w 0x00000000#32 reduces_S16x32x512_S16x32 hφ hacc (ix2 p q)
      = ∑ k : Fin 512, w (ix3 p q k) := by
  refine (Ideal.multiReduction_add_single w 0x00000000#32 reduces_S16x32x512_S16x32 hφ hacc (ix2 p q)).trans ?_
  refine Finset.sum_congr rfl fun k _ => congrArg w (funext fun a => Fin.ext ?_)
  match a with
  | ⟨0, _⟩ => rfl
  | ⟨1, _⟩ => rfl
  | ⟨2, _⟩ => rfl

/-- WHAT THE BODY STORES, at an index: the block's row scaled to unit length. -/
theorem pay_text (x0 : FVec Ideal S16x32x512 .f32) (p : Fin 16) (q : Fin 32) (d : Fin 512) :
    k0_pay1 (F := Ideal) x0 (ix3 p q d) = unitv (row x0 p q) d := by
  unfold k0_pay1
  show x0 (ix3 p q d) * broadcastTo S16x32x512
      (fun i => (fun s : EReal => Ideal.div one (max (Ideal.sqrt s) eps))
        (shapeCast S16x32x1 (multiReduction .add [2] S16x32 (mulf x0 x0) 0x00000000#32 reduces_S16x32x512_S16x32 (.inl rfl) rfl)
          shapeCasts_S16x32_S16x32x1 i))
      broadcasts_S16x32x1_S16x32x512 (ix3 p q d) = _
  refine (congrArg (x0 (ix3 p q d) * ·) (spread_row
    (multiReduction .add [2] S16x32 (mulf x0 x0) 0x00000000#32 reduces_S16x32x512_S16x32 (.inl rfl) rfl)
    (fun s : EReal => Ideal.div one (max (Ideal.sqrt s) eps)) p q d)).trans ?_
  refine (congrArg (fun s => x0 (ix3 p q d) * Ideal.div one (max (Ideal.sqrt s) eps))
    (row_sum (mulf x0 x0) (.inl rfl) rfl p q)).trans ?_
  exact mul_recip (row x0 p q) d

end Cert.KernelIdeal.TextValue

end
-- ==== Proof.TextArray.lean ====
/-
  The first region's output array. The grid has four points; point `t` reads rows `16t … 16t+15` of the text
  array's leading axis as its block and writes the same rows of the output. Every entry the body stores is its
  row of the block scaled to unit length, the block's row `(p, q)` is the array's row `(16t + p, q)`, and the four
  blocks cover the array: so after the region the output array is the text array with every row scaled to unit
  length, whatever the region found in it.
-/
import proofs.«137049_j74655121539841_2_alg».proof.Proof.Gen.KernelIdeal.Frame
import proofs.«137049_j74655121539841_2_alg».proof.Proof.TextPayload
import Idealize.ShloMosaic.Lib.Pipeline.Value

noncomputable section

open scoped BigOperators

namespace Cert.KernelIdeal.TextArray

open Cert.KernelIdeal Cert.KernelIdeal.Gen Idealize.ShloMosaic Idealize.ShloMosaic.TcCoe Idealize.SL.Sem
open Idealize.ShloMosaic.ValueIdx Cert.Score Cert.KernelIdeal.TextValue
open Idealize.ShloMosaic.Pipeline (Dat)

/-- An array of 512-entry rows with every row scaled to unit length. -/
def scaled (T : S64x32x512.Idx → EReal) : S64x32x512.Idx → EReal := fun z => unitv (row T (z 0) (z 1)) (z 2)

variable (V : (c : Dev nD) → (b : Ref sig .tc) → Buf (Elt Ideal) ((c : Thread nD τ).loc b))

theorem zeros3 : (![0, 0, 0] : Fin 3 → Nat) = fun _ => 0 := funext fun a => by fin_cases a <;> rfl

/-- The printed index maps over the four points: both windows sit at block `t` of the leading axis. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at a point, read at `(p, q, d)`: the array at row `16t + p`. -/
theorem in_block (c : Dev nD) (t : Fin cfg0.N) (p : Fin 16) (q : Fin 32) (d : Fin 512)
    (b : Fin 64) (q' : Fin 32) (d' : Fin 512) (hb : b.val = t.val * 16 + p.val) (hq : q'.val = q.val) (hd : d'.val = d.val) :
    iblk0 V c 0 t (ix3 p q d) = V c main_arg1 (ix3 b q' d') := by
  show V c main_arg1 (((cfg0.win 0).blk t).view.emb (ix3 p q d)) = _
  obtain ⟨e0, e1, e2, -⟩ := index_facts t
  refine congrArg (V c main_arg1) (funext fun a => Fin.ext ?_)
  match a with
  | ⟨0, _⟩ => show win0_0.index t (0 : Fin 3) * 16 + 1 * p.val = b.val; rw [e0]; omega
  | ⟨1, _⟩ => show win0_0.index t (1 : Fin 3) * 32 + 1 * q.val = q'.val; rw [e1]; omega
  | ⟨2, _⟩ => show win0_0.index t (2 : Fin 3) * 512 + 1 * d.val = d'.val; rw [e2]; omega

/-- WHAT POINT `t` WRITES BACK is block `t` of the scaled text array. -/
theorem flushed_eq (c : Dev nD) (t : Fin cfg0.N) :
    (dat0 V c).flushed 1 t = ((cfg0.win 1).blk t).view.read (Elt Ideal) (scaled (V c main_arg1)) := by
  show (cfg0.win 1).cut (grid0.coords t) ((dat0 V c).after 1 t) = _
  rw [after0_1]
  unfold out0_1
  rw [View.canon_unit_zero zeros3]
  simp only [View.ld_unit_zero (S := S16x32x512) zeros3]
  obtain ⟨-, -, -, f0, f1, f2⟩ := index_facts t
  funext y
  have hy : y = ix3 (⟨(y 0).val, (y 0).isLt⟩ : Fin 16) (⟨(y 1).val, (y 1).isLt⟩ : Fin 32) (⟨(y 2).val, (y 2).isLt⟩ : Fin 512) :=
    funext fun a => by match a with | ⟨0, _⟩ => rfl | ⟨1, _⟩ => rfl | ⟨2, _⟩ => rfl
  generalize (⟨(y 0).val, (y 0).isLt⟩ : Fin 16) = p at hy
  generalize (⟨(y 1).val, (y 1).isLt⟩ : Fin 32) = q at hy
  generalize (⟨(y 2).val, (y 2).isLt⟩ : Fin 512) = d at hy
  subst hy
  show k0_pay1 (F := Ideal) (iblk0 V c 0 t) (ix3 p q d) = scaled (V c main_arg1) (((cfg0.win 1).blk t).view.emb (ix3 p q d))
  refine (pay_text (iblk0 V c 0 t) p q d).trans ?_
  have hrow : row (iblk0 V c 0 t) p q
      = row (V c main_arg1) ((((cfg0.win 1).blk t).view.emb (ix3 p q d)) 0) ((((cfg0.win 1).blk t).view.emb (ix3 p q d)) 1) :=
    funext fun k => in_block V c t p q k _ _ k
      (by show win0_1.index t (0 : Fin 3) * 16 + 1 * p.val = t.val * 16 + p.val; rw [f0]; omega)
      (by show win0_1.index t (1 : Fin 3) * 32 + 1 * q.val = q.val; rw [f1]; omega) rfl
  have hd : d = (((cfg0.win 1).blk t).view.emb (ix3 p q d)) 2 :=
    Fin.ext (by show d.val = win0_1.index t (2 : Fin 3) * 512 + 1 * d.val; rw [f2]; omega)
  exact (congrArg (fun R => unitv R d) hrow).trans (congrArg (unitv _) hd)

/-- An index of the array is in point `t`'s block iff each coordinate is in the block's range on its axis. -/
theorem mem_blk (t : Fin cfg0.N) (i : S64x32x512.Idx) :
    i ∈ ((cfg0.win 1).blk t).view.set ↔ ∀ a : Fin 3, win0_1.index t a * S16x32x512.size a ≤ (i a).val ∧ (i a).val < win0_1.index t a * S16x32x512.size a + S16x32x512.size a := by
  show i ∈ ((View.whole main_v0).slice (win0_1.rect t)).set ↔ _
  rw [View.set_slice_whole, Rect.mem_set_unit]
  exact Iff.rfl

/-- Every index of the array is in some point's block: row `r` of the leading axis is in block `r / 16`. -/
theorem cover (i : S64x32x512.Idx) :
    ∃ t : Fin cfg0.N, (cfg0.win 1).flush t = true ∧ i ∈ ((cfg0.win 1).blk t).view.set := by
  have hN : cfg0.N = 4 := N_0
  have h0 : (i 0).val < 64 := (i 0).isLt
  have h1 : (i 1).val < 32 := (i 1).isLt
  have h2 : (i 2).val < 512 := (i 2).isLt
  refine ⟨⟨(i 0).val / 16, by rw [hN]; omega⟩, flush0_1 _, ?_⟩
  rw [mem_blk]
  obtain ⟨-, -, -, f0, f1, f2⟩ := index_facts ⟨(i 0).val / 16, by rw [hN]; omega⟩
  intro a
  match a with
  | ⟨0, _⟩ =>
    show win0_1.index _ (0 : Fin 3) * 16 ≤ (i 0).val ∧ (i 0).val < win0_1.index _ (0 : Fin 3) * 16 + 16
    rw [f0]; show (i 0).val / 16 * 16 ≤ (i 0).val ∧ (i 0).val < (i 0).val / 16 * 16 + 16; omega
  | ⟨1, _⟩ =>
    show win0_1.index _ (1 : Fin 3) * 32 ≤ (i 1).val ∧ (i 1).val < win0_1.index _ (1 : Fin 3) * 32 + 32
    rw [f1]; omega
  | ⟨2, _⟩ =>
    show win0_1.index _ (2 : Fin 3) * 512 ≤ (i 2).val ∧ (i 2).val < win0_1.index _ (2 : Fin 3) * 512 + 512
    rw [f2]; omega

/-- THE OUTPUT ARRAY after the region: the text array as the region found it, every row scaled to unit length. -/
theorem final (c : Dev nD) : (dat0 V c).arrAt 1 cfg0.N = scaled (V c main_arg1) :=
  (dat0 V c).arrAt_eq_of_cover 1 (scaled (V c main_arg1)) (fun t _ => flushed_eq V c t) cover

end Cert.KernelIdeal.TextArray

end
-- ==== Proof.ScorePayload.lean ====
/-
  The second kernel's body at an index. The body scales the rows of its [128, 512] audio block to unit length,
  and then, for each of four chunks of 512 text rows, contracts the scaled block against the chunk, applies
  `exp (0 - √(max (2 - 2·) 0))`, and re-lays the [128, 512] result `[s, (i, j)]` as `[i, (s, j)]` before storing it.

  The four chunks' arithmetic is written as seven payloads cut at arbitrary places; composed, each chunk's
  stored value is the same function `k1_pay6` of the scaled block and the chunk's text rows. Read at
  `(i, s·32 + j)` that function is the score of the block's row `s` against the chunk's row `i·32 + j`.
-/
import proofs.«137049_j74655121539841_2_alg».proof.Proof.Gen.KernelIdeal.Skeleton
import proofs.«137049_j74655121539841_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.ScoreValue

open Cert.KernelIdeal Cert.KernelIdeal.Gen Idealize.ShloMosaic Idealize.ShloMosaic.ValueIdx Cert.Score

/-! ## The four stores are one function of the scaled block and a chunk of text rows -/

section AnyInstance
variable {F : FTy → Type} [FloatOps F]

theorem store0_eq (x0 : Vec F S1x128x512 .f32) (tc : Vec F S512x512 .bf16) :
    k1_pay3 x0 tc = k1_pay6 (k1_pay2 x0) tc := rfl
theorem store1_eq (x0 : Vec F S1x128x512 .f32) (tc : Vec F S512x512 .bf16) :
    k1_pay5 (k1_pay4 x0 tc) (Scalar.ofBits .f32 0x40000000#32) = k1_pay6 (k1_pay2 x0) tc := rfl
theorem store3_eq (an : FVec F S128x512 .bf16) (tc : Vec F S512x512 .bf16) :
    k1_pay1 (k1_pay7 an tc) (Scalar.ofBits .f32 0x40000000#32) = k1_pay6 an tc := rfl

end AnyInstance

/-! ## The audio block's rows, scaled -/

/-- A row's sum, kept as a trailing unit axis and spread back along the row, read at `(s, d)`: the value at `s`. -/
theorem spread_row (v : FVec Ideal S128 .f32) (f : EReal → EReal) (s : Fin 128) (d : Fin 512) :
    broadcastTo S128x512 (fun i => f (shapeCast S128x1 v shapeCasts_S128_S128x1 i)) broadcasts_S128x1_S128x512 (ix2 s d)
      = f (v (ix1 s)) := by
  refine (broadcastTo_apply _ broadcasts_S128x1_S128x512 (ix2 s d) (ix2 s (0 : Fin 1)) (fun a => ?_)).trans ?_
  · match a with
    | ⟨0, _⟩ => show s.val = if (128 : Nat) = 1 then 0 else s.val; rw [if_neg (by decide)]
    | ⟨1, _⟩ => show 0 = if (1 : Nat) = 1 then 0 else d.val; rw [if_pos rfl]
  · refine congrArg f (shapeCast_apply v shapeCasts_S128_S128x1 (ix2 s (0 : Fin 1)) (ix1 s) ?_)
    rw [Shape.rowMajor_val_one, Shape.rowMajor_val_two]
    show s.val = s.val * 1 + 0
    omega

/-- The sum of a block along its rows, at row `s`. -/
theorem row_sum (w : FVec Ideal S128x512 .f32) (hφ) (hacc) (s : Fin 128) :
    multiReduction .add [1] S128 w 0x00000000#32 reduces_S128x512_S128 hφ hacc (ix1 s)
      = ∑ k : Fin 512, w (ix2 s k) := by
  refine (Ideal.multiReduction_add_single w 0x00000000#32 reduces_S128x512_S128 hφ hacc (ix1 s)).trans ?_
  refine Finset.sum_congr rfl fun k _ => congrArg w (funext fun a => Fin.ext ?_)
  match a with
  | ⟨0, _⟩ => rfl
  | ⟨1, _⟩ => rfl

/-- The block without its leading unit axis. -/
theorem squeeze (x0 : FVec Ideal S1x128x512 .f32) (s : Fin 128) (d : Fin 512) :
    shapeCast S128x512 x0 shapeCasts_S1x128x512_S128x512 (ix2 s d) = x0 (ix3 (0 : Fin 1) s d) := by
  refine shapeCast_apply x0 shapeCasts_S1x128x512_S128x512 (ix2 s d) (ix3 (0 : Fin 1) s d) ?_
  rw [Shape.rowMajor_val_two, Shape.rowMajor_val_three]
  show (0 * 128 + s.val) * 512 + d.val = s.val * 512 + d.val
  omega

/-- THE SCALED BLOCK at an index: the block's row scaled to unit length. -/
theorem pay_audio (x0 : FVec Ideal S1x128x512 .f32) (s : Fin 128) (d : Fin 512) :
    k1_pay2 (F := Ideal) x0 (ix2 s d) = unitv (row x0 (0 : Fin 1) s) d := by
  unfold k1_pay2
  have e : ∀ (s : Fin 128) (d : Fin 512), shapeCast S128x512 x0 shapeCasts_S1x128x512_S128x512 (ix2 s d) = x0 (ix3 (0 : Fin 1) s d) :=
    squeeze x0
  generalize shapeCast S128x512 x0 shapeCasts_S1x128x512_S128x512 = v1 at e ⊢
  show v1 (ix2 s d) * broadcastTo S128x512
      (fun i => (fun t : EReal => Ideal.div one (max (Ideal.sqrt t) eps))
        (shapeCast S128x1 (multiReduction .add [1] S128 (mulf v1 v1) 0x00000000#32 reduces_S128x512_S128 (.inl rfl) rfl)
          shapeCasts_S128_S128x1 i))
      broadcasts_S128x1_S128x512 (ix2 s d) = _
  refine (congrArg (v1 (ix2 s d) * ·) (spread_row
    (multiReduction .add [1] S128 (mulf v1 v1) 0x00000000#32 reduces_S128x512_S128 (.inl rfl) rfl)
    (fun t : EReal => Ideal.div one (max (Ideal.sqrt t) eps)) s d)).trans ?_
  refine (congrArg (fun t => v1 (ix2 s d) * Ideal.div one (max (Ideal.sqrt t) eps))
    (row_sum (mulf v1 v1) (.inl rfl) rfl s)).trans ?_
  show v1 (ix2 s d) * Ideal.div one (max (Ideal.sqrt (∑ k : Fin 512, v1 (ix2 s k) * v1 (ix2 s k))) eps) = _
  simp only [e]
  exact mul_recip (row x0 (0 : Fin 1) s) d

/-! ## The contraction at an index -/

/-- The matrix product's dimension numbers: both operands contract their second axis. -/
abbrev DD : DotDims S128x512 S512x512 S128x512 := dot_S128x512_S512x512_S128x512_1_1_0_0_n_n

theorem lhs0 (i : S128x512.Idx) (q : DD.contr.Idx) : (DD.lhsIdx i q 0).val = (i 0).val := by
  unfold DotDims.lhsIdx
  rw [dif_neg (show ¬(0 : Fin S128x512.rank) ∈ DD.lhsBatch by decide), dif_pos (show (0 : Fin S128x512.rank) ∈ DD.lhsNonContracting by decide)]
  rfl
theorem lhs1 (i : S128x512.Idx) (q : DD.contr.Idx) : (DD.lhsIdx i q 1).val = (q ⟨0, by decide⟩).val :=
  DD.lhsIdx_val_of_single rfl i q
theorem rhs0 (i : S128x512.Idx) (q : DD.contr.Idx) : (DD.rhsIdx i q 0).val = (i 1).val := by
  unfold DotDims.rhsIdx
  rw [dif_neg (show ¬(0 : Fin S512x512.rank) ∈ DD.rhsBatch by decide), dif_pos (show (0 : Fin S512x512.rank) ∈ DD.rhsNonContracting by decide)]
  rfl
theorem rhs1 (i : S128x512.Idx) (q : DD.contr.Idx) : (DD.rhsIdx i q 1).val = (q ⟨0, by decide⟩).val :=
  DD.rhsIdx_val_of_single rfl i q

/-- The product of the scaled block with a chunk, into a zero accumulator, at `(s, n)`: the inner product of the
    block's row `s` and the chunk's row `n`. -/
theorem matmul_at (an : FVec Ideal S128x512 .bf16) (tc : FVec Ideal S512x512 .bf16) (s : Fin 128) (n : Fin 512) :
    matmul DD none an tc (constant S128x512 .f32 0x00000000#32) (ix2 s n) = ∑ k : Fin 512, an (ix2 s k) * tc (ix2 n k) := by
  simp only [matmul]
  rw [Ideal.matmul_constant_zero_apply, ← Equiv.sum_comp (ValueIdx.contrEquiv1 DD 512 rfl rfl).symm]
  refine Finset.sum_congr rfl fun k _ => ?_
  have hk := ValueIdx.contrEquiv1_symm_val DD 512 rfl rfl k
  have el : DD.lhsIdx (ix2 s n) ((ValueIdx.contrEquiv1 DD 512 rfl rfl).symm k) = ix2 s k := funext fun a => Fin.ext (by
    match a with
    | ⟨0, _⟩ => exact lhs0 _ _
    | ⟨1, _⟩ => exact (lhs1 _ _).trans hk)
  have er : DD.rhsIdx (ix2 s n) ((ValueIdx.contrEquiv1 DD 512 rfl rfl).symm k) = ix2 n k := funext fun a => Fin.ext (by
    match a with
    | ⟨0, _⟩ => exact rhs0 _ _
    | ⟨1, _⟩ => exact (rhs1 _ _).trans hk)
  rw [el, er]

/-! ## One chunk's stored value at an index -/

/-- WHAT A CHUNK STORES, at `(i, q)` with `q = s·32 + j`: the score of the block's row `s` against the chunk's row
    `n = i·32 + j`. The three re-layings — [128, 512] as [128, 16, 32], the swap of the first two axes, and
    [16, 128, 32] as [16, 4096] — each keep or permute the row-major position as the coordinates say. -/
theorem chunk_at (an : FVec Ideal S128x512 .bf16) (tc : FVec Ideal S512x512 .bf16) (i : Fin 16) (q : Fin 4096)
    (s : Fin 128) (j : Fin 32) (n : Fin 512) (hq : q.val = s.val * 32 + j.val) (hn : n.val = i.val * 32 + j.val) :
    k1_pay6 (F := Ideal) an tc (ix3 (0 : Fin 1) i q) = score (fun k => an (ix2 s k)) (fun k => tc (ix2 n k)) := by
  unfold k1_pay6
  rw [shapeCast_self]
  refine (shapeCast_apply _ shapeCasts_S16x4096_S1x16x4096 (ix3 (0 : Fin 1) i q) (ix2 i q) ?_).trans ?_
  · rw [Shape.rowMajor_val_two, Shape.rowMajor_val_three]
    show i.val * 4096 + q.val = (0 * 16 + i.val) * 4096 + q.val
    omega
  refine (shapeCast_apply _ shapeCasts_S16x128x32_S16x4096 (ix2 i q) (ix3 i s j) ?_).trans ?_
  · rw [Shape.rowMajor_val_three, Shape.rowMajor_val_two]
    show (i.val * 128 + s.val) * 32 + j.val = i.val * 4096 + q.val
    omega
  refine (transpose_apply [1, 0, 2] _ transposes_S128x16x32_p1_0_2_S16x128x32 (ix3 i s j) (ix3 s i j) (fun b => ?_)).trans ?_
  · match b with
    | ⟨0, _⟩ => rfl
    | ⟨1, _⟩ => rfl
    | ⟨2, _⟩ => rfl
  refine (shapeCast_apply _ shapeCasts_S128x512_S128x16x32 (ix3 s i j) (ix2 s n) ?_).trans ?_
  · rw [Shape.rowMajor_val_two, Shape.rowMajor_val_three]
    show s.val * 512 + n.val = (s.val * 16 + i.val) * 32 + j.val
    omega
  show Ideal.exp (Ideal.ofBits .f32 0x00000000#32 - Ideal.sqrt (max (two - two *
      matmul DD none an tc (constant S128x512 .f32 0x00000000#32) (ix2 s n)) (Ideal.ofBits .f32 0x00000000#32))) = _
  rw [matmul_at, Ideal.ofBits_zero_f32]
  exact score_zero_sub _ _

end Cert.KernelIdeal.ScoreValue

end
-- ==== Proof.ScoreArray.lean ====
/-
  The second region's output array. The grid has 64 points; point `t` reads audio batch `t` — a [1, 128, 512]
  block — and the whole table of 2048 text rows, and writes block `t` of the [64, 64, 4096] output. The body's four
  stores tile its [1, 64, 4096] buffer by 16 rows each, store `c` holding the scores of the audio block's rows
  against text rows `512c … 512c+511`; row `I = 16c + i` of the buffer at column `q = 32s + j` is therefore the
  score of audio row `s` against table row `32I + j`. The 64 blocks cover the output array.
-/
import proofs.«137049_j74655121539841_2_alg».proof.Proof.Gen.KernelIdeal.Frame
import proofs.«137049_j74655121539841_2_alg».proof.Proof.ScorePayload
import Idealize.ShloMosaic.Lib.Pipeline.Value

noncomputable section

open scoped BigOperators

namespace Cert.KernelIdeal.ScoreArray

open Cert.KernelIdeal Cert.KernelIdeal.Gen Idealize.ShloMosaic Idealize.ShloMosaic.TcCoe Idealize.SL.Sem
open Idealize.ShloMosaic.ValueIdx Cert.Score Cert.KernelIdeal.ScoreValue
open Idealize.ShloMosaic.Pipeline (Dat)

/-- The scores of every audio row, scaled to unit length, against a table `X` of 2048 rows taken as they are:
    entry `(b, I, 32s + j)` is audio row `(b, s)` against table row `32I + j`. -/
def scores (A : S64x128x512.Idx → EReal) (X : S2048x512.Idx → EReal) : S64x64x4096.Idx → EReal := fun z =>
  score (unitv (row A (z 0) (⟨(z 2).val / 32, by have h : (z 2).val < 4096 := (z 2).isLt; omega⟩ : Fin 128)))
    (fun k => X (ix2 (⟨(z 1).val * 32 + (z 2).val % 32, by have h : (z 1).val < 64 := (z 1).isLt; omega⟩ : Fin 2048) k))

/-- The same for one audio batch: what the body leaves in its output buffer. -/
def blockScores (x0 : Vec Ideal S1x128x512 .f32) (x1 : Vec Ideal S2048x512 .bf16) : Vec Ideal S1x64x4096 .f32 := fun y =>
  score (unitv (row x0 (0 : Fin 1) (⟨(y 2).val / 32, by have h : (y 2).val < 4096 := (y 2).isLt; omega⟩ : Fin 128)))
    (fun k => x1 (ix2 (⟨(y 1).val * 32 + (y 2).val % 32, by have h : (y 1).val < 64 := (y 1).isLt; omega⟩ : Fin 2048) k))

theorem zeros3 : (![0, 0, 0] : Fin 3 → Nat) = fun _ => 0 := funext fun a => by fin_cases a <;> rfl

/-- One store's value, at a local index `x` of its 16 rows, is the buffer's function at the index `y` the store's
    rectangle sends `x` to: `c4` is the chunk, `tc` its 512 text rows. -/
theorem piece_eq (x0 : Vec Ideal S1x128x512 .f32) (x1 : Vec Ideal S2048x512 .bf16) (c4 : Fin 4)
    (tc : Vec Ideal S512x512 .bf16)
    (htc : ∀ (n : Fin 512) (k : Fin 512) (n' : Fin 2048), n'.val = c4.val * 512 + n.val → tc (ix2 n k) = x1 (ix2 n' k))
    (x : S1x16x4096.Idx) (y : S1x64x4096.Idx) (h1 : (y 1).val = c4.val * 16 + (x 1).val) (h2 : (y 2).val = (x 2).val) :
    k1_pay6 (F := Ideal) (k1_pay2 (View.ld x0 r1_0)) tc x = blockScores x0 x1 y := by
  have hx1 : (x 1).val < 16 := (x 1).isLt
  have hx2 : (x 2).val < 4096 := (x 2).isLt
  have hc4 := c4.isLt
  have hx : x = ix3 (0 : Fin 1) (⟨(x 1).val, hx1⟩ : Fin 16) (⟨(x 2).val, hx2⟩ : Fin 4096) :=
    funext fun a => by
      match a with
      | ⟨0, _⟩ => exact Fin.ext (by have h0 : (x 0).val < 1 := (x 0).isLt; show (x 0).val = 0; omega)
      | ⟨1, _⟩ => rfl
      | ⟨2, _⟩ => rfl
  rw [hx]
  refine (chunk_at (k1_pay2 (View.ld x0 r1_0)) tc ⟨(x 1).val, hx1⟩ ⟨(x 2).val, hx2⟩
    (⟨(x 2).val / 32, by omega⟩ : Fin 128) (⟨(x 2).val % 32, by omega⟩ : Fin 32)
    (⟨(x 1).val * 32 + (x 2).val % 32, by omega⟩ : Fin 512) (by show (x 2).val = (x 2).val / 32 * 32 + (x 2).val % 32; omega) rfl).trans ?_
  unfold blockScores
  rw [View.ld_unit_zero zeros3]
  have hs : (⟨(x 2).val / 32, by omega⟩ : Fin 128) = ⟨(y 2).val / 32, by have h : (y 2).val < 4096 := (y 2).isLt; omega⟩ :=
    Fin.ext (by show (x 2).val / 32 = (y 2).val / 32; rw [h2])
  rw [← hs]
  refine congrArg₂ score (funext fun k => pay_audio x0 _ k) (funext fun k => htc _ k _ ?_)
  show (y 1).val * 32 + (y 2).val % 32 = c4.val * 512 + ((x 1).val * 32 + (x 2).val % 32)
  rw [h1, h2]; omega

/-- A slice of the table's rows, read at `(n, k)`: the table at row `off + n`. -/
theorem chunk_rows (x1 : Vec Ideal S2048x512 .bf16) (off : Nat) (inb : ∀ a, (![off, 0] : Fin 2 → Nat) a + S512x512.size a ≤ S2048x512.size a)
    (n : Fin 512) (k : Fin 512) (n' : Fin 2048) (hn : n'.val = off + n.val) :
    View.ld (Val := Elt Ideal) x1 (Rect.unit (s := S2048x512) ![off, 0] S512x512.size inb) (ix2 n k) = x1 (ix2 n' k) := by
  show x1 ((Rect.unit (s := S2048x512) ![off, 0] S512x512.size inb).emb (ix2 n k)) = _
  refine congrArg x1 (funext fun a => Fin.ext ?_)
  rw [Rect.emb_apply]
  match a with
  | ⟨0, _⟩ => show off + 1 * n.val = n'.val; omega
  | ⟨1, _⟩ => show 0 + 1 * k.val = k.val; omega

/-- WHAT THE BODY LEAVES in its output buffer, from the two input blocks: the four stores are pieces of one
    function. -/
theorem body_eq (x0 : Vec Ideal S1x128x512 .f32) (x1 : Vec Ideal S2048x512 .bf16) :
    out1_2 (F := Ideal) x0 x1 = blockScores x0 x1 := by
  funext y
  unfold out1_2
  refine View.canon_apply_of_pieces (Val := Elt Ideal) (blockScores x0 x1) _ ?_ y (cover1_2 _ _ _ _ y)
  intro p hp x
  simp only [List.mem_cons, List.mem_singleton, List.not_mem_nil, or_false] at hp
  rcases hp with rfl | rfl | rfl | rfl
  · show k1_pay1 (k1_pay7 (k1_pay2 (View.ld x0 r1_0)) (View.ld x1 r1_7)) (Scalar.ofBits .f32 0x40000000#32) x = blockScores x0 x1 (r1_8.emb x)
    rw [store3_eq]
    refine piece_eq x0 x1 3 (View.ld x1 r1_7) (fun n k n' hn => chunk_rows x1 1536 _ n k n' hn) x _ ?_ ?_
    · rw [Rect.emb_apply]; show 16 * 3 + 1 * (x 1).val = 3 * 16 + (x 1).val; omega
    · rw [Rect.emb_apply]; show 0 + 1 * (x 2).val = (x 2).val; omega
  · show k1_pay6 (k1_pay2 (View.ld x0 r1_0)) (View.ld x1 r1_5) x = blockScores x0 x1 (r1_6.emb x)
    refine piece_eq x0 x1 2 (View.ld x1 r1_5) (fun n k n' hn => chunk_rows x1 1024 _ n k n' hn) x _ ?_ ?_
    · rw [Rect.emb_apply]; show 32 + 1 * (x 1).val = 2 * 16 + (x 1).val; omega
    · rw [Rect.emb_apply]; show 0 + 1 * (x 2).val = (x 2).val; omega
  · show k1_pay5 (k1_pay4 (View.ld x0 r1_0) (View.ld x1 r1_3)) (Scalar.ofBits .f32 0x40000000#32) x = blockScores x0 x1 (r1_4.emb x)
    rw [store1_eq]
    refine piece_eq x0 x1 1 (View.ld x1 r1_3) (fun n k n' hn => chunk_rows x1 512 _ n k n' hn) x _ ?_ ?_
    · rw [Rect.emb_apply]; show 16 + 1 * (x 1).val = 1 * 16 + (x 1).val; omega
    · rw [Rect.emb_apply]; show 0 + 1 * (x 2).val = (x 2).val; omega
  · show k1_pay3 (View.ld x0 r1_0) (View.ld x1 r1_1) x = blockScores x0 x1 (r1_2.emb x)
    rw [store0_eq]
    refine piece_eq x0 x1 0 (View.ld x1 r1_1) (fun n k n' hn => chunk_rows x1 0 _ n k n' (by omega)) x _ ?_ ?_
    · rw [Rect.emb_apply]; show 0 + 1 * (x 1).val = 0 * 16 + (x 1).val; omega
    · rw [Rect.emb_apply]; show 0 + 1 * (x 2).val = (x 2).val; omega

/-! ## From the blocks to the array -/

variable (V : (c : Dev nD) → (b : Ref sig .tc) → Buf (Elt Ideal) ((c : Thread nD τ).loc b))

/-- The printed index maps over the 64 points: the audio and output windows sit at block `t` of the leading axis,
    the table's window at the whole table. -/
theorem index_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The audio block at a point, read at `(0, s, d)`: the array at batch `t`. -/
theorem audio_block (c : Dev nD) (t : Fin cfg1.N) (s : Fin 128) (d : Fin 512)
    (b : Fin 64) (s' : Fin 128) (d' : Fin 512) (hb : b.val = t.val) (hs : s'.val = s.val) (hd : d'.val = d.val) :
    iblk1 V c 0 t (ix3 (0 : Fin 1) s d) = V c main_arg0 (ix3 b s' d') := by
  show V c main_arg0 (((cfg1.win 0).blk t).view.emb (ix3 (0 : Fin 1) s d)) = _
  obtain ⟨e0, e1, e2, -⟩ := index_facts t
  refine congrArg (V c main_arg0) (funext fun a => Fin.ext ?_)
  match a with
  | ⟨0, _⟩ => show win1_0.index t (0 : Fin 3) * 1 + 1 * 0 = b.val; rw [e0]; omega
  | ⟨1, _⟩ => show win1_0.index t (1 : Fin 3) * 128 + 1 * s.val = s'.val; rw [e1]; omega
  | ⟨2, _⟩ => show win1_0.index t (2 : Fin 3) * 512 + 1 * d.val = d'.val; rw [e2]; omega

/-- The table's block at a point is the whole table. -/
theorem table_block (c : Dev nD) (t : Fin cfg1.N) (n : Fin 2048) (k : Fin 512) (n' : Fin 2048) (hn : n'.val = n.val) :
    iblk1 V c 1 t (ix2 n k) = V c main_v1 (ix2 n' k) := by
  show V c main_v1 (((cfg1.win 1).blk t).view.emb (ix2 n k)) = _
  obtain ⟨-, -, -, e0, e1, -⟩ := index_facts t
  refine congrArg (V c main_v1) (funext fun a => Fin.ext ?_)
  match a with
  | ⟨0, _⟩ => show win1_1.index t (0 : Fin 2) * 2048 + 1 * n.val = n'.val; rw [e0]; omega
  | ⟨1, _⟩ => show win1_1.index t (1 : Fin 2) * 512 + 1 * k.val = k.val; rw [e1]; omega

/-- WHAT POINT `t` WRITES BACK is block `t` of the scores of the audio array against the table. -/
theorem flushed_eq (c : Dev nD) (t : Fin cfg1.N) :
    (dat1 V c).flushed 2 t = ((cfg1.win 2).blk t).view.read (Elt Ideal) (scores (V c main_arg0) (V c main_v1)) := by
  show (cfg1.win 2).cut (grid1.coords t) ((dat1 V c).after 2 t) = _
  rw [after1_2]
  obtain ⟨-, -, -, -, -, f0, f1, f2⟩ := index_facts t
  funext y
  show out1_2 (F := Ideal) (iblk1 V c 0 t) (iblk1 V c 1 t) y
    = scores (V c main_arg0) (V c main_v1) (((cfg1.win 2).blk t).view.emb y)
  refine (congrFun (body_eq (iblk1 V c 0 t) (iblk1 V c 1 t)) y).trans ?_
  have hy0 : (y 0).val < 1 := (y 0).isLt
  have hy1 : (y 1).val < 64 := (y 1).isLt
  have hy2 : (y 2).val < 4096 := (y 2).isLt
  unfold blockScores scores
  refine congrArg₂ score (congrArg unitv (funext fun k => ?_)) (funext fun k => ?_)
  · exact audio_block V c t _ k _ _ k
      (by show win1_2.index t (0 : Fin 3) * 1 + 1 * (y 0).val = t.val; rw [f0]; omega)
      (by show (win1_2.index t (2 : Fin 3) * 4096 + 1 * (y 2).val) / 32 = (y 2).val / 32; rw [f2]; omega) rfl
  · exact table_block V c t _ k _
      (by show (win1_2.index t (1 : Fin 3) * 64 + 1 * (y 1).val) * 32 + (win1_2.index t (2 : Fin 3) * 4096 + 1 * (y 2).val) % 32
            = (y 1).val * 32 + (y 2).val % 32; rw [f1, f2]; omega)

/-- An index of the array is in point `t`'s block iff each coordinate is in the block's range on its axis. -/
theorem mem_blk (t : Fin cfg1.N) (i : S64x64x4096.Idx) :
    i ∈ ((cfg1.win 2).blk t).view.set ↔ ∀ a : Fin 3, win1_2.index t a * S1x64x4096.size a ≤ (i a).val ∧ (i a).val < win1_2.index t a * S1x64x4096.size a + S1x64x4096.size a := by
  show i ∈ ((View.whole main_v2).slice (win1_2.rect t)).set ↔ _
  rw [View.set_slice_whole, Rect.mem_set_unit]
  exact Iff.rfl

/-- Every index of the array is in some point's block: batch `b` is block `b`. -/
theorem cover (i : S64x64x4096.Idx) :
    ∃ t : Fin cfg1.N, (cfg1.win 2).flush t = true ∧ i ∈ ((cfg1.win 2).blk t).view.set := by
  have hN : cfg1.N = 64 := N_1
  have h0 : (i 0).val < 64 := (i 0).isLt
  have h1 : (i 1).val < 64 := (i 1).isLt
  have h2 : (i 2).val < 4096 := (i 2).isLt
  refine ⟨⟨(i 0).val, by rw [hN]; omega⟩, flush1_2 _, ?_⟩
  rw [mem_blk]
  obtain ⟨-, -, -, -, -, f0, f1, f2⟩ := index_facts ⟨(i 0).val, by rw [hN]; omega⟩
  intro a
  match a with
  | ⟨0, _⟩ =>
    show win1_2.index _ (0 : Fin 3) * 1 ≤ (i 0).val ∧ (i 0).val < win1_2.index _ (0 : Fin 3) * 1 + 1
    rw [f0]; show (i 0).val * 1 ≤ (i 0).val ∧ (i 0).val < (i 0).val * 1 + 1; omega
  | ⟨1, _⟩ =>
    show win1_2.index _ (1 : Fin 3) * 64 ≤ (i 1).val ∧ (i 1).val < win1_2.index _ (1 : Fin 3) * 64 + 64
    rw [f1]; omega
  | ⟨2, _⟩ =>
    show win1_2.index _ (2 : Fin 3) * 4096 ≤ (i 2).val ∧ (i 2).val < win1_2.index _ (2 : Fin 3) * 4096 + 4096
    rw [f2]; omega

/-- THE OUTPUT ARRAY after the region: the scores of the audio array against the table, both as the region found
    them. -/
theorem final (c : Dev nD) : (dat1 V c).arrAt 2 cfg1.N = scores (V c main_arg0) (V c main_v1) :=
  (dat1 V c).arrAt_eq_of_cover 2 (scores (V c main_arg0) (V c main_v1)) (fun t _ => flushed_eq V c t) cover

end Cert.KernelIdeal.ScoreArray

end
-- ==== Proof.KernelRun.lean ====
/-
  The kernel program's run with its result named. The program is two regions among two reshapes; after the last
  reshape every buffer the program keeps holds the contents the fold through the four segments gives it, and the
  result buffer is one of them: every weakly fair execution ends with the result at that fold's value and the
  two arguments as launched.
-/
import proofs.«137049_j74655121539841_2_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the
    contents the last segment boundary gives it and the arguments as launched. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.KernelIdeal.RunValue

end
-- ==== Proof.KernelValue.lean ====
/-
  The kernel program's result as a function of its arguments.

  Walking back from the result buffer: it is the [64, 64, 4096] output of the second region re-laid as
  [64, 64, 128, 32]; that output is the scores of the audio argument against the table the second region found;
  the table is the first region's output re-laid from [64, 32, 512] to [2048, 512]; and the first region's output
  is the text argument with every row scaled to unit length. Row `32I + j` of the table is therefore the scaled text
  row `(I, j)`, column `32s + j` of the second output is entry `(s, j)` of the result, and the result is `Score.G`.
-/
import proofs.«137049_j74655121539841_2_alg».proof.Proof.Gen.KernelIdeal.Frame
import proofs.«137049_j74655121539841_2_alg».proof.Proof.TextArray
import proofs.«137049_j74655121539841_2_alg».proof.Proof.ScoreArray
import proofs.«137049_j74655121539841_2_alg».proof.Proof.KernelRun
import Idealize.ShloMosaic.Lib.StableHlo.Run

noncomputable section

open scoped BigOperators

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx Cert.Score

/-! ## The two re-layings, read at an index -/

/-- The scores against the re-laid scaled text array, re-laid: `G`. -/
theorem relaid (A : S64x128x512.Idx → EReal) (T : S64x32x512.Idx → EReal) :
    shapeCast S64x64x128x32
        (ScoreArray.scores A (shapeCast S2048x512 (TextArray.scaled T) shapeCasts_S64x32x512_S2048x512))
        shapeCasts_S64x64x4096_S64x64x128x32
      = G A T := by
  funext x
  obtain ⟨b, i, s, j, rfl⟩ : ∃ (b : Fin 64) (i : Fin 64) (s : Fin 128) (j : Fin 32), x = ix4 b i s j :=
    ⟨x 0, x 1, x 2, x 3, eq_ix4 x⟩
  rw [G_ix4]
  refine (shapeCast_apply _ shapeCasts_S64x64x4096_S64x64x128x32 (ix4 b i s j)
    (ix3 b i (⟨s.val * 32 + j.val, by omega⟩ : Fin 4096)) ?_).trans ?_
  · rw [Shape.rowMajor_val_three, Shape.rowMajor_val_four]
    show (b.val * 64 + i.val) * 4096 + (s.val * 32 + j.val) = ((b.val * 64 + i.val) * 128 + s.val) * 32 + j.val
    omega
  unfold ScoreArray.scores
  refine congrArg₂ score (congrArg unitv (congrArg (row A b) (Fin.ext ?_))) (funext fun k => ?_)
  · show (s.val * 32 + j.val) / 32 = s.val
    omega
  · refine (shapeCast_apply _ shapeCasts_S64x32x512_S2048x512 (ix2 _ k) (ix3 i j k) ?_).trans rfl
    rw [Shape.rowMajor_val_three, Shape.rowMajor_val_two]
    show (i.val * 32 + j.val) * 512 + k.val = (i.val * 32 + (s.val * 32 + j.val) % 32) * 512 + k.val
    omega

/-! ## The buffer contents at the segment boundaries -/

variable (m : (ℓ : Loc nD τ sig) → Buf (Elt Ideal) ℓ) (ρ : Dev nD → PrngReg)

/-- After the first region its output buffer holds the text argument with every row scaled. -/
theorem text_done (c : Dev nD) :
    W1 m ρ c (Proc.devRef .tc main_v0) = TextArray.scaled (m ((c : Thread nD τ).loc main_arg1)) :=
  (W1_arr m ρ c 1).trans (TextArray.final (V0 m ρ) c)

/-- The reshape before the second region lays that array out as the table. -/
theorem table_laid (c : Dev nD) :
    W2 m ρ c (Proc.devRef .tc main_v1)
      = shapeCast S2048x512 (W1 m ρ c (Proc.devRef .tc main_v0)) shapeCasts_S64x32x512_S2048x512 := by
  show StableHlo.after hostOps1 (W1 m ρ c) (Proc.devRef .tc main_v1) = _
  after_results
  rfl

/-- The audio argument reaches the second region as launched. -/
theorem audio_kept (c : Dev nD) :
    W2 m ρ c (Proc.devRef .tc main_arg0) = m ((c : Thread nD τ).loc main_arg0) := by
  show StableHlo.after hostOps1 (W1 m ρ c) (Proc.devRef .tc main_arg0) = _
  after_results
  exact W1_of_ne m ρ c main_arg0 (by decide)

/-- After the second region its output buffer holds the scores of the audio argument against the table. -/
theorem scores_done (c : Dev nD) :
    W3 m ρ c (Proc.devRef .tc main_v2)
      = ScoreArray.scores (m ((c : Thread nD τ).loc main_arg0))
          (shapeCast S2048x512 (TextArray.scaled (m ((c : Thread nD τ).loc main_arg1))) shapeCasts_S64x32x512_S2048x512) := by
  refine (W3_arr m ρ c 2).trans ((ScoreArray.final (V2 m ρ) c).trans ?_)
  show ScoreArray.scores (W2 m ρ c (Proc.devRef .tc main_arg0)) (W2 m ρ c (Proc.devRef .tc main_v1)) = _
  rw [audio_kept, table_laid, text_done]

/-- The last reshape re-lays it as the result. -/
theorem result_laid (c : Dev nD) :
    W4 m ρ c (Proc.devRef .tc main_v3)
      = shapeCast S64x64x128x32 (W3 m ρ c (Proc.devRef .tc main_v2)) shapeCasts_S64x64x4096_S64x64x128x32 := by
  show StableHlo.after hostOps2 (W3 m ρ c) (Proc.devRef .tc main_v3) = _
  after_results
  rfl

/-- THE RESULT BUFFER after the run: `G` of the two arguments as launched. -/
theorem result_eq (c : Dev nD) :
    W4 m ρ c (Proc.devRef .tc main_v3)
      = G (m ((c : Thread nD τ).loc main_arg0)) (m ((c : Thread nD τ).loc main_arg1)) := by
  rw [result_laid, scores_done]
  exact relaid _ _

/-- THE RUN: every weakly fair execution of the kernel program ends with its result at `G` of the arguments and
    the arguments unchanged. -/
theorem run : θ_run defs (onTc (τ := τ) (main (F := Ideal))) ⟨m, fun _ => 0, ρ⟩ (fun r => ∀ c : Dev nD,
      r.2.mem ((c.tc : Thread nD τ).loc main_v3)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (RunValue.run_named m ρ)

end Cert.KernelIdeal.KernelValue

end
-- ==== Proof.lean ====
/-
  The scores `exp (-‖a - t‖)` of every audio row against every text row, both scaled to unit length — a kernel
  program of two regions against a plain reference — are the same array at the ideal instance.

  For unit vectors `‖a - t‖² = 2 - 2⟨a, t⟩`, and both programs compute `exp (-√(max (2 - 2⟨a, t⟩) 0))` from the inner
  product. The kernel program scales the text rows in a first region (rounding them to bf16, which is the identity
  here), lays them out as a table of 2048 rows, and in a second region scales each audio batch's rows, multiplies
  them against the table in four chunks, and writes the scores already in `(b, i, s, j)` order; the reference scales
  both arrays, contracts them in one product and transposes. Index by index both are `Score.G` of the arguments
  (Proof/Spec.lean): the kernel's side is Proof/KernelValue.lean over the two regions' arrays (Proof/TextArray.lean,
  Proof/ScoreArray.lean) and the bodies read at an index (Proof/TextPayload.lean, Proof/ScorePayload.lean), the
  reference's is Proof/RefValue.lean. The laws that join the two spellings — `x · (1 / n) = x / n` for the clamped
  norm `n ≥ ε > 0`, the order of the factors under the sum, `0 - y = -y` — hold on every extended real, so the
  precondition is not used.
-/
import proofs.«137049_j74655121539841_2_alg».proof.Defs
import proofs.«137049_j74655121539841_2_alg».proof.Proof.Gen.Kernel
import proofs.«137049_j74655121539841_2_alg».proof.Proof.Gen.Kernel.Skeleton
import proofs.«137049_j74655121539841_2_alg».proof.Proof.Gen.Kernel.Launch
import proofs.«137049_j74655121539841_2_alg».proof.Proof.Gen.Kernel.Points
import proofs.«137049_j74655121539841_2_alg».proof.Proof.Gen.Kernel.Frame
import proofs.«137049_j74655121539841_2_alg».proof.Proof.Gen.KernelIdeal
import proofs.«137049_j74655121539841_2_alg».proof.Proof.Gen.KernelIdeal.Skeleton
import proofs.«137049_j74655121539841_2_alg».proof.Proof.Gen.KernelIdeal.Launch
import proofs.«137049_j74655121539841_2_alg».proof.Proof.Gen.KernelIdeal.Points
import proofs.«137049_j74655121539841_2_alg».proof.Proof.Gen.KernelIdeal.Frame
import proofs.«137049_j74655121539841_2_alg».proof.Proof.Gen.ReferenceIdeal
import proofs.«137049_j74655121539841_2_alg».proof.Proof.Gen.Pre_finite_inputs
import proofs.«137049_j74655121539841_2_alg».proof.Proof.Gen.ReferenceIdeal.Run
import proofs.«137049_j74655121539841_2_alg».proof.Proof.Gen.ReferenceIdeal.Read
import proofs.«137049_j74655121539841_2_alg».proof.Proof.RefValue
import proofs.«137049_j74655121539841_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its reading at the ideal instance. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments both programs end with their result at `Score.G` of the
    arguments: the kernel program by its run, the reference by its run read at an index. -/
theorem algebraic : Cert.algebraic_KernelIdeal_ReferenceIdeal := by
  intro m ρ m' ρ' _ hagree
  refine ⟨fun c => Cert.Score.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
